-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x1024 : Shape := ⟨2, ![16384, 1024]⟩
abbrev S1024x1024 : Shape := ⟨2, ![1024, 1024]⟩
abbrev S1024 : Shape := ⟨1, ![1024]⟩
abbrev S1024x512 : Shape := ⟨2, ![1024, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024x1024 .f32) (main_arg5 : FVec F S1024 .f32) (main_arg6 : FVec F S1024x512 .f32) (main_arg7 : FVec F S1024x1024 .f32) (main_arg8 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x512 .f32 := Host.absf main_arg6
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  fn_part2 (F := F) main_arg7 main_arg8 main_v33

def fn {F : FTy → Type} [FloatOps F] (main_arg0 : FVec F S16384x512 .f32) (main_arg1 : FVec F S16384x1024 .f32) (main_arg2 : FVec F S1024x1024 .f32) (main_arg3 : FVec F S1024 .f32) (main_arg4 : FVec F S1024x1024 .f32) (main_arg5 : FVec F S1024 .f32) (main_arg6 : FVec F S1024x512 .f32) (main_arg7 : FVec F S1024x1024 .f32) (main_arg8 : FVec F S1024 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_v13 main_v16
-- ==== Kernel.lean ====
abbrev S16384x512 : Shape := ⟨2, ![16384, 512]⟩
abbrev S16384x1024 : Shape := ⟨2, ![16384, 1024]⟩
abbrev S1024x1024 : Shape := ⟨2, ![1024, 1024]⟩
abbrev S1024 : Shape := ⟨1, ![1024]⟩
abbrev S1024x512 : Shape := ⟨2, ![1024, 512]⟩
abbrev S1024x2048 : Shape := ⟨2, ![1024, 2048]⟩
abbrev S2048 : Shape := ⟨1, ![2048]⟩
abbrev S1x2048 : Shape := ⟨2, ![1, 2048]⟩
abbrev S512x1024 : Shape := ⟨2, ![512, 1024]⟩
abbrev S1x1024 : Shape := ⟨2, ![1, 1024]⟩
abbrev S512x512 : Shape := ⟨2, ![512, 512]⟩
abbrev S512x2048 : Shape := ⟨2, ![512, 2048]⟩

abbrev nBuf : Space → Nat
  | .hbm => 21
  | .vmem => 11
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x512, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024x2048, .f32⟩
  | .hbm, ⟨12, _⟩ => ⟨S1024x2048, .bf16⟩
  | .hbm, ⟨13, _⟩ => ⟨S2048, .f32⟩
  | .hbm, ⟨14, _⟩ => ⟨S1x2048, .f32⟩
  | .hbm, ⟨15, _⟩ => ⟨S512x1024, .f32⟩
  | .hbm, ⟨16, _⟩ => ⟨S512x1024, .bf16⟩
  | .hbm, ⟨17, _⟩ => ⟨S1024x1024, .f32⟩
  | .hbm, ⟨18, _⟩ => ⟨S1024x1024, .bf16⟩
  | .hbm, ⟨19, _⟩ => ⟨S1x1024, .f32⟩
  | .hbm, ⟨20, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S512x1024, .f32⟩
  | .local _ .vmem, ⟨4, _⟩ => ⟨S1024x2048, .bf16⟩
  | .local _ .vmem, ⟨5, _⟩ => ⟨S1x2048, .f32⟩
  | .local _ .vmem, ⟨6, _⟩ => ⟨S512x1024, .bf16⟩
  | .local _ .vmem, ⟨7, _⟩ => ⟨S1024x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S1024x1024_S1024x1024_1_0 : S1024x1024.Transposes [1, 0] S1024x1024
  concatenates_S1024x1024_S1024x1024_S1024x2048_d1 : Shape.Concatenates [S1024x1024, S1024x1024] S1024x2048 1
  bitsLt_bf16_f32 : FTy.bits .bf16 < FTy.bits .f32
  concatenates_S1024_S1024_S2048_d0 : Shape.Concatenates [S1024, S1024] S2048 0
  shapeCasts_S2048_S1x2048 : S2048.ShapeCasts S1x2048
  transposes_S1024x512_S512x1024_1_0 : S1024x512.Transposes [1, 0] S512x1024
  shapeCasts_S1024_S1x1024 : S1024.ShapeCasts S1x1024
  inb_S512x512_S512x512_0_0 : ∀ a, (![0, 0] : Fin 2 → Nat) a + S512x512.size a ≤ S512x512.size a
  h_S512x512 : 0 < S512x512.numel
  inb_S512x1024_S512x1024_0_0 : ∀ a, (![0, 0] : Fin 2 → Nat) a + S512x1024.size a ≤ S512x1024.size a
  h_S512x1024 : 0 < S512x1024.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x1024 : S512x2048.Slices ![0, 0] S512x1024
  slices_S512x2048_o0_1024_S512x1024 : S512x2048.Slices ![0, 1024] S512x1024
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x2048_S512x2048_1_0_0_1_n_n_wf : DotDims.WF S512x1024 S1024x2048 S512x2048 [1] [0] [0] [1] [] []
  dot_S512x512_S512x1024_S512x1024_1_0_0_1_n_n_wf : DotDims.WF S512x512 S512x1024 S512x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .bf16 = 32 ∨ (Rect.block (s := S1024x2048) S1024x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x1024.size a
  hwx0_4 : ∀ i : grid0.Coords, EltTy.bits .bf16 = 32 ∨ (Rect.block (s := S512x1024) S512x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S16384x1024.size a
  hwx0_7 : ∀ i : grid0.Coords, EltTy.bits .f32 = 32 ∨ (Rect.block (s := S16384x1024) S512x1024.size (cc0_transform_7 i) (hinb0_7 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384x1024 : Shape := ⟨2, ![16384, 1024]⟩
abbrev S1024x1024 : Shape := ⟨2, ![1024, 1024]⟩
abbrev S1024 : Shape := ⟨1, ![1024]⟩
abbrev S1024x512 : Shape := ⟨2, ![1024, 512]⟩
abbrev S1x1024 : Shape := ⟨2, ![1, 1024]⟩
abbrev S_ : Shape := ⟨0, ![]⟩
abbrev S512x1024 : Shape := ⟨2, ![512, 1024]⟩

abbrev nBuf : Space → Nat
  | .hbm => 51
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x512, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S16384x1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S1024x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S512x1024, .f32⟩
  | .hbm, ⟨36, _⟩ => ⟨S16384x1024, .f32⟩
  | .hbm, ⟨37, _⟩ => ⟨S16384x1024, .f32⟩
  | .hbm, ⟨38, _⟩ => ⟨S1024x1024, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  transposes_S1024x512_S512x1024_1_0 : S1024x512.Transposes [1, 0] S512x1024
  dot_S16384x1024_S1024x1024_S16384x1024_1_0_0_1_n_n_wf : DotDims.WF S16384x1024 S1024x1024 S16384x1024 [1] [0] [0] [1] [] []
  dot_S16384x512_S512x1024_S16384x1024_1_0_0_1_n_n_wf : DotDims.WF S16384x512 S512x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x512_S512x1024_S16384x1024_1_0_0_1_n_n : DotDims S16384x512 S512x1024 S16384x1024 where
  lhsContracting := [1]
  rhsContracting := [0]
  lhsNonContracting := [0]
  rhsNonContracting := [1]
  lhsBatch := []
  rhsBatch := []
  wf := dot_S16384x512_S512x1024_S16384x1024_1_0_0_1_n_n_wf

class Facts : Prop extends Facts₀ where

variable [Facts]
-- ==== Proof.GruCell.lean ====
/-
  The gated recurrent cell as ONE function of its nine argument arrays, entry by entry, on the extended reals.

  Write h for the previous state (16384 rows of 1024), x for the input (16384 rows of 512). For a batch row p and a
  hidden unit e:

      u(p,e)  = σ( Σ_k h(p,k) · W_u(e,k) + b_u(e) )                                   the update gate
      r(p,e)  = σ( Σ_k h(p,k) · W_r(e,k) + b_r(e) )                                   the reset gate
      c(p,e)  = tanh( ( Σ_k x(p,k) · W_hx(e,k) + Σ_k (r(p,k) · h(p,k)) · W_hh(e,k) ) + b_h(e) )     the candidate
      h'(p,e) = (1 − u(p,e)) · h(p,e) + u(p,e) · c(p,e)                               the next state

  Every weight matrix is used through its rows: unit e of a gate is row e of the matrix against row p of the state
  (the product with the transposed matrix). The logistic function σ(s) is 1 / (1 + e^(−s)) with the extended reals'
  conventions at the infinities; a program that spells it as those four operations, with the constant one given as a
  32-bit float word, computes the same function (`logistic_expanded`). Nothing here asks the entries to be finite: the
  two programs this specification joins build the same expression at every entry, so no law of arithmetic that fails at
  an infinity is used.
-/
import Idealize.ShloMosaic.PureOps.Ideal
import Idealize.ShloMosaic.Lib.ValueIdx
import Idealize.ShloMosaic.Lib.IdealHost

noncomputable section

namespace Cert.Gru

open Idealize.ShloMosaic Idealize.ShloMosaic.ValueIdx

/-- An array of `a` rows of `b` extended reals. -/
abbrev Rows (a b : ℕ) : Type := (⟨2, ![a, b]⟩ : Shape).Idx → EReal
/-- A vector of `a` extended reals. -/
abbrev Line (a : ℕ) : Type := (⟨1, ![a]⟩ : Shape).Idx → EReal

/-- What a gate applies the logistic function to: row `p` of the state against row `e` of the gate's matrix, plus the
    gate's bias at `e`. -/
def preGate (h : Rows 16384 1024) (W : Rows 1024 1024) (b : Line 1024) (p : Fin 16384) (e : Fin 1024) : EReal :=
  (∑ k : Fin 1024, h (ix2 p k) * W (ix2 e k)) + b (ix1 e)

/-- A gate (update or reset, by the matrix and bias it is given) at row `p`, unit `e`. -/
def gate (h : Rows 16384 1024) (W : Rows 1024 1024) (b : Line 1024) (p : Fin 16384) (e : Fin 1024) : EReal :=
  Ideal.logistic (preGate h W b p e)

/-- The candidate state: the input's row against row `e` of `W_hx`, plus the reset-gated state's row against row `e` of
    `W_hh`, plus the bias, under the hyperbolic tangent. -/
def candidate (x : Rows 16384 512) (h : Rows 16384 1024) (Wr : Rows 1024 1024) (br : Line 1024)
    (Whx : Rows 1024 512) (Whh : Rows 1024 1024) (bh : Line 1024) (p : Fin 16384) (e : Fin 1024) : EReal :=
  Ideal.tanh (((∑ k : Fin 512, x (ix2 p k) * Whx (ix2 e k))
      + ∑ k : Fin 1024, (gate h Wr br p k * h (ix2 p k)) * Whh (ix2 e k)) + bh (ix1 e))

/-- The next state at row `p`, unit `e`: the update gate mixes the previous state with the candidate. -/
def next (x : Rows 16384 512) (h : Rows 16384 1024) (Wu : Rows 1024 1024) (bu : Line 1024) (Wr : Rows 1024 1024)
    (br : Line 1024) (Whx : Rows 1024 512) (Whh : Rows 1024 1024) (bh : Line 1024) (p : Fin 16384) (e : Fin 1024) : EReal :=
  (1 - gate h Wu bu p e) * h (ix2 p e) + gate h Wu bu p e * candidate x h Wr br Whx Whh bh p e

/-- The next state as a whole array. -/
def nextState (x : Rows 16384 512) (h : Rows 16384 1024) (Wu : Rows 1024 1024) (bu : Line 1024) (Wr : Rows 1024 1024)
    (br : Line 1024) (Whx : Rows 1024 512) (Whh : Rows 1024 1024) (bh : Line 1024) : Rows 16384 1024 :=
  fun i => next x h Wu bu Wr br Whx Whh bh (i 0) (i 1)

/-- Column `e` of the left half of a row of 2048: the two gates' weights (and biases) laid side by side put the update
    gate's unit `e` there, -/
abbrev lo (e : Fin 1024) : Fin 2048 := ⟨e.val, Nat.lt_of_lt_of_le e.isLt (by decide)⟩
/-- and the reset gate's unit `e` in the right half, at column `1024 + e`. -/
abbrev hi (e : Fin 1024) : Fin 2048 := ⟨1024 + e.val, by have := e.isLt; omega⟩

/-- The logistic function spelt out as a quotient — one over one plus the exponential of the negated argument — with
    the constant one written as its 32-bit float word, is the logistic function, at every extended real. -/
theorem logistic_expanded (s : EReal) :
    Ideal.div (Ideal.ofBits .f32 0x3F800000#32) (Ideal.ofBits .f32 0x3F800000#32 + Ideal.exp (-s)) = Ideal.logistic s := by
  rw [Ideal.ofBits_one_f32]
  rfl

end Cert.Gru

end
-- ==== Proof.LibColsMatmul.lean ====
/-
  Rows against columns: the plain matrix product read at an index, whatever the operands' float formats.

  For x of shape [a, n] and w of shape [n, b], the product contracting axis 1 of x with axis 0 of w has shape [a, b],
  and its entry (p, e) is the sum over k < n of x(p, k) * w(k, e). On the extended reals the matrix-unit product into a
  zero accumulator is exactly that sum — also when the operands are held in shorter float formats than the
  accumulator, a change of format being the identity there.
-/
import Idealize.ShloMosaic.PureOps.Ideal.Laws
import Idealize.ShloMosaic.Lib.ValueIdx

noncomputable section

namespace Cert.ColsMatmul

open Idealize.ShloMosaic Idealize.ShloMosaic.ValueIdx

variable {a b n : ℕ}

/-- The dimension numbers "contract axis 1 of the left operand with axis 0 of the right, no batch axis". -/
abbrev colsDims (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, n]⟩ ⟨2, ![n, b]⟩ ⟨2, ![a, b]⟩ [1] [0] [0] [1] [] [])

/-- The left operand's index at output (p, e) and contraction index q: row p, -/
theorem lhs_row (i : (⟨2, ![a, b]⟩ : Shape).Idx) (q : (colsDims wf).contr.Idx) :
    ((colsDims wf).lhsIdx i q 0).val = (i 0).val := by
  unfold DotDims.lhsIdx
  rw [dif_neg (show ¬(0 : Fin (⟨2, ![a, n]⟩ : Shape).rank) ∈ (colsDims wf).lhsBatch from List.not_mem_nil),
    dif_pos (show (0 : Fin (⟨2, ![a, n]⟩ : Shape).rank) ∈ (colsDims wf).lhsNonContracting from List.mem_singleton.mpr rfl)]
  rfl
/-- column q. -/
theorem lhs_col (i : (⟨2, ![a, b]⟩ : Shape).Idx) (q : (colsDims wf).contr.Idx) :
    ((colsDims wf).lhsIdx i q 1).val = (q ⟨0, Nat.one_pos⟩).val :=
  (colsDims wf).lhsIdx_val_of_single rfl i q
/-- The right operand's: row q, -/
theorem rhs_row (i : (⟨2, ![a, b]⟩ : Shape).Idx) (q : (colsDims wf).contr.Idx) :
    ((colsDims wf).rhsIdx i q 0).val = (q ⟨0, Nat.one_pos⟩).val :=
  (colsDims wf).rhsIdx_val_of_single rfl i q
/-- column e. -/
theorem rhs_col (i : (⟨2, ![a, b]⟩ : Shape).Idx) (q : (colsDims wf).contr.Idx) :
    ((colsDims wf).rhsIdx i q 1).val = (i 1).val := by
  unfold DotDims.rhsIdx
  rw [dif_neg (show ¬(1 : Fin (⟨2, ![n, b]⟩ : Shape).rank) ∈ (colsDims wf).rhsBatch from List.not_mem_nil),
    dif_pos (show (1 : Fin (⟨2, ![n, b]⟩ : Shape).rank) ∈ (colsDims wf).rhsNonContracting from List.mem_singleton.mpr rfl)]
  rfl

/-- The contraction's sum at (p, e), re-indexed by the one contracted coordinate: row p of x against column e of w. -/
theorem contraction_cols (x : (⟨2, ![a, n]⟩ : Shape).Idx → EReal) (w : (⟨2, ![n, b]⟩ : Shape).Idx → EReal) (p : Fin a) (e : Fin b) :
    ∑ q : (colsDims wf).contr.Idx, x ((colsDims wf).lhsIdx (ix2 p e) q) * w ((colsDims wf).rhsIdx (ix2 p e) q)
      = ∑ k : Fin n, x (ix2 p k) * w (ix2 k e) := by
  rw [← Equiv.sum_comp (contrEquiv1 (colsDims wf) n rfl rfl).symm]
  refine Finset.sum_congr rfl fun k _ => ?_
  have hk := contrEquiv1_symm_val (colsDims wf) n rfl rfl k
  have el : (colsDims wf).lhsIdx (ix2 p e) ((contrEquiv1 (colsDims wf) n rfl rfl).symm k) = ix2 p k := funext fun ax => Fin.ext (by
    match ax with
    | ⟨0, _⟩ => exact lhs_row wf _ _
    | ⟨1, _⟩ => exact (lhs_col wf _ _).trans hk)
  have er : (colsDims wf).rhsIdx (ix2 p e) ((contrEquiv1 (colsDims wf) n rfl rfl).symm k) = ix2 k e := funext fun ax => Fin.ext (by
    match ax with
    | ⟨0, _⟩ => exact (rhs_row wf _ _).trans hk
    | ⟨1, _⟩ => exact rhs_col wf _ _)
  rw [el, er]

/-- The matrix-unit product of an [a, n] and an [n, b] operand of any float formats into the zero accumulator is, at
    (p, e), the sum over k of x(p,k) * w(k,e); the dimension record may be any record equal to `colsDims`. -/
theorem cols_matmul {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) (p : Fin a) (e : Fin b) :
    FloatOps.matmul d none x w (constant ⟨2, ![a, b]⟩ .f32 0x00000000#32) (ix2 p e)
      = ∑ k : Fin n, x (ix2 p k) * w (ix2 k e) := by
  subst hd
  exact (Ideal.matmul_constant_zero_apply (colsDims wf) none x w (ix2 p e)).trans (contraction_cols wf x w p e)

end Cert.ColsMatmul

end
-- ==== Proof.BlockBody.lean ====
/-
  What the kernel body computes from the blocks it loads, entry by entry.

  At one grid point the body holds 512 rows of the input (v0) and of the previous state (v1), and the whole of five
  operand arrays: the two gates' matrices side by side as one array of 1024 rows of 2048 (v4: column e of the left
  half belongs to the update gate's unit e, column 1024 + e to the reset gate's), their biases side by side as one
  row of 2048 (v6), the candidate's two matrices with the contracted axis first (v17: 512 rows of 1024; v19: 1024 rows
  of 1024) and the candidate's bias as one row (v21). It forms, for each of its 512 rows p:

      fused(p,c) = Σ_k v1(p,k) · v4(k,c) + v6(0,c)                    one product for both gates, c < 2048
      u(p,e) = σ(fused(p, e)),   r(p,e) = σ(fused(p, 1024 + e))        the two halves, under the logistic function
      c(p,e) = tanh( (Σ_k v0(p,k) · v17(k,e) + Σ_k (r(p,k) · v1(p,k)) · v19(k,e)) + v21(0,e) )
      out(p,e) = (1 − u(p,e)) · v1(p,e) + u(p,e) · c(p,e)

  The products are matrix-unit products into a zero accumulator with operands narrowed to a shorter float format; on the
  extended reals the narrowing is the identity and the product is the plain sum. When the blocks are what the cell's
  arrays hold — rows of the input and state, the matrices transposed — the body's entry is the cell's next state
  (`payload_eq_next`).
-/
import proofs.«178698_j9320079033021_2_alg».proof.Proof.Gen.KernelIdeal.Skeleton
import proofs.«178698_j9320079033021_2_alg».proof.Proof.GruCell
import proofs.«178698_j9320079033021_2_alg».proof.Proof.LibColsMatmul
import Idealize.ShloMosaic.Lib.ValueIdx
import Idealize.ShloMosaic.Lib.ValueLayout
import Idealize.ShloMosaic.Lib.Pipeline.Value
import Idealize.ShloMosaic.Lib.IdealHost

noncomputable section

namespace Cert.KernelIdeal.Body

open Cert.KernelIdeal Cert.KernelIdeal.Gen Idealize.ShloMosaic Idealize.ShloMosaic.ValueIdx
open Cert.Gru (lo hi)

variable (v0 : FVec Ideal S512x512 .f32) (v1 : FVec Ideal S512x1024 .f32) (v4 : FVec Ideal S1024x2048 .bf16)
  (v6 : FVec Ideal S1x2048 .f32) (v17 : FVec Ideal S512x1024 .bf16) (v19 : FVec Ideal S1024x1024 .bf16)
  (v21 : FVec Ideal S1x1024 .f32)

/-! ## Both gates' pre-activations, side by side -/

/-- The block's 512 state rows against the two gates' matrices laid side by side, plus the two biases laid side by
    side: 512 rows of 2048. -/
def fused : FVec Ideal S512x2048 .f32 :=
  addf (matmul dot_S512x1024_S1024x2048_S512x2048_1_0_0_1_n_n none (truncf .bf16 v1 bitsLt_bf16_f32)
      (shapeCast S1024x2048 v4 shapeCasts_S1024x2048_S1024x2048) (constant S512x2048 .f32 0x00000000#32))
    (broadcastTo S512x2048 (shapeCast S1x2048 v6 shapeCasts_S1x2048_S1x2048) broadcasts_S1x2048_S512x2048)

/-- Entry (p, c): row p of the state block against column c of the fused matrix, plus the fused bias at c. -/
theorem fused_apply (p : Fin 512) (c : Fin 2048) :
    fused v1 v4 v6 (ix2 p c) = (∑ k : Fin 1024, v1 (ix2 p k) * v4 (ix2 k c)) + v6 (ix2 (0 : Fin 1) c) := by
  unfold fused
  rw [shapeCast_self, shapeCast_self, addf_apply]
  refine congrArg₂ (· + ·) ?_ ?_
  · exact (Cert.ColsMatmul.cols_matmul dot_S512x1024_S1024x2048_S512x2048_1_0_0_1_n_n_wf
      dot_S512x1024_S1024x2048_S512x2048_1_0_0_1_n_n rfl (truncf .bf16 v1 bitsLt_bf16_f32) v4 p c).trans
      (Finset.sum_congr rfl fun k _ => rfl)
  · exact broadcastTo_1b_ab_apply v6 broadcasts_S1x2048_S512x2048 p c

/-! ## The two gates: the halves of the fused array under the logistic function -/

/-- The update gate on the block: the left half. -/
def gateU : FVec Ideal S512x1024 .f32 :=
  logistic (extractStridedSlice S512x1024 ![0, 0] (fused v1 v4 v6) slices_S512x2048_o0_0_S512x1024)

/-- The reset gate on the block: the right half. -/
def gateR : FVec Ideal S512x1024 .f32 :=
  logistic (extractStridedSlice S512x1024 ![0, 1024] (fused v1 v4 v6) slices_S512x2048_o0_1024_S512x1024)

theorem gateU_apply (p : Fin 512) (e : Fin 1024) :
    gateU v1 v4 v6 (ix2 p e) = Ideal.logistic (fused v1 v4 v6 (ix2 p (lo e))) := by
  unfold gateU
  exact congrArg Ideal.logistic
    (slice2_axis1_apply 0 (fused v1 v4 v6) slices_S512x2048_o0_0_S512x1024 p e (lo e) (Nat.zero_add _).symm)

theorem gateR_apply (p : Fin 512) (e : Fin 1024) :
    gateR v1 v4 v6 (ix2 p e) = Ideal.logistic (fused v1 v4 v6 (ix2 p (hi e))) := by
  unfold gateR
  exact congrArg Ideal.logistic
    (slice2_axis1_apply 1024 (fused v1 v4 v6) slices_S512x2048_o0_1024_S512x1024 p e (hi e) rfl)

/-! ## The candidate -/

/-- The candidate on the block: the input rows against the first matrix, plus the reset-gated state rows against the
    second, plus the bias row, under the hyperbolic tangent. -/
def cand : FVec Ideal S512x1024 .f32 :=
  tanh (addf (addf
      (matmul dot_S512x512_S512x1024_S512x1024_1_0_0_1_n_n none (truncf .bf16 v0 bitsLt_bf16_f32)
        (shapeCast S512x1024 v17 shapeCasts_S512x1024_S512x1024) (constant S512x1024 .f32 0x00000000#32))
      (matmul dot_S512x1024_S1024x1024_S512x1024_1_0_0_1_n_n none
        (truncf .bf16 (mulf (gateR v1 v4 v6) v1) bitsLt_bf16_f32)
        (shapeCast S1024x1024 v19 shapeCasts_S1024x1024_S1024x1024) (constant S512x1024 .f32 0x00000000#32)))
    (broadcastTo S512x1024 (shapeCast S1x1024 v21 shapeCasts_S1x1024_S1x1024) broadcasts_S1x1024_S512x1024))

theorem cand_apply (p : Fin 512) (e : Fin 1024) :
    cand v0 v1 v4 v6 v17 v19 v21 (ix2 p e)
      = Ideal.tanh (((∑ k : Fin 512, v0 (ix2 p k) * v17 (ix2 k e))
          + ∑ k : Fin 1024, (gateR v1 v4 v6 (ix2 p k) * v1 (ix2 p k)) * v19 (ix2 k e)) + v21 (ix2 (0 : Fin 1) e)) := by
  unfold cand
  rw [shapeCast_self, shapeCast_self, shapeCast_self]
  refine congrArg Ideal.tanh ?_
  rw [addf_apply, addf_apply]
  refine congrArg₂ (· + ·) (congrArg₂ (· + ·) ?_ ?_) ?_
  · exact (Cert.ColsMatmul.cols_matmul dot_S512x512_S512x1024_S512x1024_1_0_0_1_n_n_wf
      dot_S512x512_S512x1024_S512x1024_1_0_0_1_n_n rfl (truncf .bf16 v0 bitsLt_bf16_f32) v17 p e).trans
      (Finset.sum_congr rfl fun k _ => rfl)
  · exact (Cert.ColsMatmul.cols_matmul dot_S512x1024_S1024x1024_S512x1024_1_0_0_1_n_n_wf
      dot_S512x1024_S1024x1024_S512x1024_1_0_0_1_n_n rfl (truncf .bf16 (mulf (gateR v1 v4 v6) v1) bitsLt_bf16_f32) v19 p e).trans
      (Finset.sum_congr rfl fun k _ => rfl)
  · exact broadcastTo_1b_ab_apply v21 broadcasts_S1x1024_S512x1024 p e

/-! ## The stored value -/

/-- The body's stored value is the update gate's mix of the state block and the candidate. -/
theorem payload_eq :
    k0_pay1 (F := Ideal) v0 v1 v4 v6 v17 v19 v21
      = addf (mulf (subf (broadcast S512x1024 (Scalar.ofBits .f32 0x3F800000#32)) (gateU v1 v4 v6)) v1)
          (mulf (gateU v1 v4 v6) (cand v0 v1 v4 v6 v17 v19 v21)) := rfl

/-- Entry (p, e) of the stored value. -/
theorem payload_apply (p : Fin 512) (e : Fin 1024) :
    k0_pay1 (F := Ideal) v0 v1 v4 v6 v17 v19 v21 (ix2 p e)
      = (1 - gateU v1 v4 v6 (ix2 p e)) * v1 (ix2 p e) + gateU v1 v4 v6 (ix2 p e) * cand v0 v1 v4 v6 v17 v19 v21 (ix2 p e) := by
  rw [payload_eq]
  show (Ideal.ofBits .f32 0x3F800000#32 - gateU v1 v4 v6 (ix2 p e)) * v1 (ix2 p e) + _ = _
  rw [Ideal.ofBits_one_f32]
  rfl

/-! ## The body's entry is the cell's -/

/-- When row p of the block's input and state are row r of the cell's, and the operand blocks are the cell's matrices
    transposed (the two gates' side by side) and its biases as rows, entry (p, e) of the stored value is the cell's next
    state at (r, e). -/
theorem payload_eq_next (x : Gru.Rows 16384 512) (h : Gru.Rows 16384 1024) (Wu : Gru.Rows 1024 1024) (bu : Gru.Line 1024)
    (Wr : Gru.Rows 1024 1024) (br : Gru.Line 1024) (Whx : Gru.Rows 1024 512) (Whh : Gru.Rows 1024 1024) (bh : Gru.Line 1024)
    (r : Fin 16384) (p : Fin 512) (e : Fin 1024)
    (hx : ∀ k : Fin 512, v0 (ix2 p k) = x (ix2 r k))
    (hh : ∀ k : Fin 1024, v1 (ix2 p k) = h (ix2 r k))
    (hwu : ∀ (k e' : Fin 1024), v4 (ix2 k (lo e')) = Wu (ix2 e' k))
    (hwr : ∀ (k e' : Fin 1024), v4 (ix2 k (hi e')) = Wr (ix2 e' k))
    (hbu : ∀ e' : Fin 1024, v6 (ix2 (0 : Fin 1) (lo e')) = bu (ix1 e'))
    (hbr : ∀ e' : Fin 1024, v6 (ix2 (0 : Fin 1) (hi e')) = br (ix1 e'))
    (hwx : ∀ (k : Fin 512) (e' : Fin 1024), v17 (ix2 k e') = Whx (ix2 e' k))
    (hwh : ∀ (k e' : Fin 1024), v19 (ix2 k e') = Whh (ix2 e' k))
    (hbh : ∀ e' : Fin 1024, v21 (ix2 (0 : Fin 1) e') = bh (ix1 e')) :
    k0_pay1 (F := Ideal) v0 v1 v4 v6 v17 v19 v21 (ix2 p e) = Gru.next x h Wu bu Wr br Whx Whh bh r e := by
  have hU : ∀ e' : Fin 1024, gateU v1 v4 v6 (ix2 p e') = Gru.gate h Wu bu r e' := fun e' => by
    rw [gateU_apply, fused_apply]
    simp only [hh, hwu, hbu]
    rfl
  have hR : ∀ e' : Fin 1024, gateR v1 v4 v6 (ix2 p e') = Gru.gate h Wr br r e' := fun e' => by
    rw [gateR_apply, fused_apply]
    simp only [hh, hwr, hbr]
    rfl
  rw [payload_apply, cand_apply]
  simp only [hU, hR, hx, hh, hwx, hwh, hbh]
  rfl

end Cert.KernelIdeal.Body

end
-- ==== Proof.HostOperands.lean ====
/-
  What the region finds in the operand arrays the host prepares.

  Before the kernel runs, the host lays out five operand arrays from the cell's weights and biases:
    * the two gates' matrices, each transposed, side by side: 1024 rows of 2048, entry (k, e) of the left half being
      W_u(e, k) and entry (k, 1024 + e) of the right half W_r(e, k);
    * the two gates' biases end to end as one row of 2048: b_u(e) at column e, b_r(e) at column 1024 + e;
    * W_hx transposed (512 rows of 1024: entry (k, e) is W_hx(e, k)) and W_hh transposed (entry (k, e) is W_hh(e, k));
    * b_h as one row of 1024.
  The narrowing of the matrices to a shorter float format is the identity on the extended reals. Each array is read here
  at an entry, in terms of the arguments as launched; the input and the previous state reach the kernel untouched.
-/
import proofs.«178698_j9320079033021_2_alg».proof.Proof.Gen.KernelIdeal.Frame
import proofs.«178698_j9320079033021_2_alg».proof.Proof.GruCell
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal

noncomputable section

namespace Cert.KernelIdeal.Operands

open Cert.KernelIdeal Cert.KernelIdeal.Gen Idealize.ShloMosaic Idealize.ShloMosaic.TcCoe Idealize.ShloMosaic.ValueIdx
open Idealize.SL.Sem
open Cert.Gru (lo hi)

variable (m : (ℓ : Loc nD τ sig) → Buf (Elt Ideal) ℓ) (c : Dev nD)

/-! ## The nine arguments as launched -/

/-- The input. -/
abbrev argX : Gru.Rows 16384 512 := m ((c : Thread nD τ).loc main_arg0)
/-- The previous state. -/
abbrev argH : Gru.Rows 16384 1024 := m ((c : Thread nD τ).loc main_arg1)
/-- The update gate's matrix and bias. -/
abbrev argWu : Gru.Rows 1024 1024 := m ((c : Thread nD τ).loc main_arg2)
abbrev argBu : Gru.Line 1024 := m ((c : Thread nD τ).loc main_arg3)
/-- The reset gate's matrix and bias. -/
abbrev argWr : Gru.Rows 1024 1024 := m ((c : Thread nD τ).loc main_arg4)
abbrev argBr : Gru.Line 1024 := m ((c : Thread nD τ).loc main_arg5)
/-- The candidate's two matrices and its bias. -/
abbrev argWhx : Gru.Rows 1024 512 := m ((c : Thread nD τ).loc main_arg6)
abbrev argWhh : Gru.Rows 1024 1024 := m ((c : Thread nD τ).loc main_arg7)
abbrev argBh : Gru.Line 1024 := m ((c : Thread nD τ).loc main_arg8)

/-! ## The two gates' matrices side by side -/

theorem gateWeights_eq : (V m c main_v3 : S1024x2048.Idx → EReal)
    = truncf (F := Ideal) .bf16 (concatenate S1024x2048 1
        [⟨S1024x1024, transpose S1024x1024 [1, 0] (argWu m c) transposes_S1024x1024_S1024x1024_1_0⟩,
         ⟨S1024x1024, transpose S1024x1024 [1, 0] (argWr m c) transposes_S1024x1024_S1024x1024_1_0⟩]
        concatenates_S1024x1024_S1024x1024_S1024x2048_d1) bitsLt_bf16_f32 := by
  dsimp only [Gen.V, Gen.hostOps0]
  after_results

/-- The left half holds the update gate's matrix transposed. -/
theorem gateWeights_lo (k e : Fin 1024) :
    (V m c main_v3 : S1024x2048.Idx → EReal) (ix2 k (lo e)) = argWu m c (ix2 e k) := by
  refine (congrFun (gateWeights_eq m c) (ix2 k (lo e))).trans ?_
  rw [truncf_apply]
  refine (concatenate_pair_apply_left (t := S1024x2048) (s₁ := S1024x1024) (s₂ := S1024x1024) (1 : Fin 2) _ _ concatenates_S1024x1024_S1024x1024_S1024x2048_d1 (ix2 k (lo e)) rfl
    (ix2 k e) (fun b => by match b with | ⟨0, _⟩ => rfl | ⟨1, _⟩ => rfl)).trans ?_
  exact transpose_ix2_apply (argWu m c) transposes_S1024x1024_S1024x1024_1_0 k e

/-- The right half holds the reset gate's matrix transposed. -/
theorem gateWeights_hi (k e : Fin 1024) :
    (V m c main_v3 : S1024x2048.Idx → EReal) (ix2 k (hi e)) = argWr m c (ix2 e k) := by
  refine (congrFun (gateWeights_eq m c) (ix2 k (hi e))).trans ?_
  rw [truncf_apply]
  refine (concatenate_pair_apply_right (t := S1024x2048) (s₁ := S1024x1024) (s₂ := S1024x1024) (1 : Fin 2) _ _ concatenates_S1024x1024_S1024x1024_S1024x2048_d1 (ix2 k (hi e)) rfl rfl
    (ix2 k e) (fun b => by match b with | ⟨0, _⟩ => exact fun _ => rfl | ⟨1, _⟩ => exact fun hb => absurd rfl hb)
    (by show e.val + 1024 = 1024 + e.val; omega)).trans ?_
  exact transpose_ix2_apply (argWr m c) transposes_S1024x1024_S1024x1024_1_0 k e

/-! ## The two gates' biases end to end, as one row -/

theorem gateBias_eq : (V m c main_v5 : S1x2048.Idx → EReal)
    = shapeCast S1x2048 (concatenate S2048 0 [⟨S1024, argBu m c⟩, ⟨S1024, argBr m c⟩] concatenates_S1024_S1024_S2048_d0)
        shapeCasts_S2048_S1x2048 := by
  dsimp only [Gen.V, Gen.hostOps0]
  after_results
  rfl

theorem gateBias_lo (e : Fin 1024) :
    (V m c main_v5 : S1x2048.Idx → EReal) (ix2 (0 : Fin 1) (lo e)) = argBu m c (ix1 e) := by
  refine (congrFun (gateBias_eq m c) (ix2 (0 : Fin 1) (lo e))).trans ?_
  refine (shapeCast_a_1a_apply _ shapeCasts_S2048_S1x2048 (0 : Fin 1) (lo e)).trans ?_
  exact concatenate_pair_apply_left (t := S2048) (s₁ := S1024) (s₂ := S1024) (0 : Fin 1) _ _ concatenates_S1024_S1024_S2048_d0 (ix1 (lo e)) rfl (ix1 e)
    (fun b => by match b with | ⟨0, _⟩ => rfl)

theorem gateBias_hi (e : Fin 1024) :
    (V m c main_v5 : S1x2048.Idx → EReal) (ix2 (0 : Fin 1) (hi e)) = argBr m c (ix1 e) := by
  refine (congrFun (gateBias_eq m c) (ix2 (0 : Fin 1) (hi e))).trans ?_
  refine (shapeCast_a_1a_apply _ shapeCasts_S2048_S1x2048 (0 : Fin 1) (hi e)).trans ?_
  exact concatenate_pair_apply_right (t := S2048) (s₁ := S1024) (s₂ := S1024) (0 : Fin 1) _ _ concatenates_S1024_S1024_S2048_d0 (ix1 (hi e)) rfl rfl (ix1 e)
    (fun b => by match b with | ⟨0, _⟩ => exact fun hb => absurd rfl hb)
    (by show e.val + 1024 = 1024 + e.val; omega)

/-! ## The candidate's matrices transposed, and its bias as a row -/

theorem candInputWeights_eq : (V m c main_v7 : S512x1024.Idx → EReal)
    = truncf (F := Ideal) .bf16 (transpose S512x1024 [1, 0] (argWhx m c) transposes_S1024x512_S512x1024_1_0) bitsLt_bf16_f32 := by
  dsimp only [Gen.V, Gen.hostOps0]
  after_results

theorem candInputWeights_apply (k : Fin 512) (e : Fin 1024) :
    (V m c main_v7 : S512x1024.Idx → EReal) (ix2 k e) = argWhx m c (ix2 e k) := by
  refine (congrFun (candInputWeights_eq m c) (ix2 k e)).trans ?_
  rw [truncf_apply]
  exact transpose_ix2_apply (argWhx m c) transposes_S1024x512_S512x1024_1_0 k e

theorem candStateWeights_eq : (V m c main_v9 : S1024x1024.Idx → EReal)
    = truncf (F := Ideal) .bf16 (transpose S1024x1024 [1, 0] (argWhh m c) transposes_S1024x1024_S1024x1024_1_0) bitsLt_bf16_f32 := by
  dsimp only [Gen.V, Gen.hostOps0]
  after_results

theorem candStateWeights_apply (k e : Fin 1024) :
    (V m c main_v9 : S1024x1024.Idx → EReal) (ix2 k e) = argWhh m c (ix2 e k) := by
  refine (congrFun (candStateWeights_eq m c) (ix2 k e)).trans ?_
  rw [truncf_apply]
  exact transpose_ix2_apply (argWhh m c) transposes_S1024x1024_S1024x1024_1_0 k e

theorem candBias_eq : (V m c main_v10 : S1x1024.Idx → EReal)
    = shapeCast S1x1024 (argBh m c) shapeCasts_S1024_S1x1024 := by
  dsimp only [Gen.V, Gen.hostOps0]
  after_results
  rfl

theorem candBias_apply (e : Fin 1024) :
    (V m c main_v10 : S1x1024.Idx → EReal) (ix2 (0 : Fin 1) e) = argBh m c (ix1 e) := by
  refine (congrFun (candBias_eq m c) (ix2 (0 : Fin 1) e)).trans ?_
  exact shapeCast_a_1a_apply (argBh m c) shapeCasts_S1024_S1x1024 (0 : Fin 1) e

end Cert.KernelIdeal.Operands

end
-- ==== Proof.BlocksToArray.lean ====
/-
  From the blocks to the whole array: after the run the result array holds the cell's next state.

  The grid has 32 points. Point t reads rows 512·t … 512·t + 511 of the input and of the previous state, reads the five
  prepared operand arrays whole, and writes back rows 512·t … 512·t + 511 of the result. An entry (p, e) of a point's
  blocks is therefore entry (512·t + p, ·) of the input and state and entry (·, ·) itself of the operand arrays; with
  what those arrays hold (the matrices transposed, the biases as rows) the body's stored value at (p, e) is the cell's
  next state at (512·t + p, e). Every row r of the result lies in exactly the block of point r / 512, so the 32 blocks
  cover the array and it ends holding the cell's next state of the arguments as launched.
-/
import proofs.«178698_j9320079033021_2_alg».proof.Proof.Gen.KernelIdeal.Value
import proofs.«178698_j9320079033021_2_alg».proof.Proof.BlockBody
import proofs.«178698_j9320079033021_2_alg».proof.Proof.HostOperands

noncomputable section

namespace Cert.KernelIdeal.Whole

open Cert.KernelIdeal Cert.KernelIdeal.Gen Cert.KernelIdeal.Operands Idealize.ShloMosaic Idealize.ShloMosaic.TcCoe
open Idealize.ShloMosaic.ValueIdx Idealize.SL.Sem
open Idealize.ShloMosaic.Pipeline (Dat)
open Cert.Gru (lo hi)

variable (m : (ℓ : Loc nD τ sig) → Buf (Elt Ideal) ℓ) (ρ : Dev nD → PrngReg)

/-- The cell's next state of the arguments as launched: what the result array is to hold. -/
abbrev nextArr (c : Dev nD) : Buf (Elt Ideal) ((c : Thread nD τ).loc main_v11) :=
  Gru.nextState (argX m c) (argH m c) (argWu m c) (argBu m c) (argWr m c) (argBr m c) (argWhx m c) (argWhh m c) (argBh m c)

theorem zeroOffsets : (![0, 0] : Fin 2 → Nat) = fun _ => 0 := funext fun a => by fin_cases a <;> rfl

/-! ## Where each window's block sits at a point -/

/-- The input, the state and the result move down one block of rows per point; the five operand arrays are read whole
    at every point (decided over the 32 points). -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The blocks, entry by entry -/

/-- Row p of the input block at point t is row 512·t + p of the input. -/
theorem inputBlock_apply (c : Dev nD) (t : Fin cfg0.N) (p k : Fin 512) (r : Fin 16384) (hr : r.val = t.val * 512 + p.val) :
    (iblk m c 0 t : FVec Ideal S512x512 .f32) (ix2 p k) = argX m c (ix2 r k) := by
  obtain ⟨e0, e1, -⟩ := blockIndex t
  unfold iblk
  rw [View.read_apply]
  show V m c main_arg0 (((cfg0.win 0).blk t).view.emb (ix2 p k)) = _
  rw [V_main_arg0]
  refine congrArg (argX m c) (funext fun a => Fin.ext ?_)
  match a with
  | ⟨0, _⟩ => show win0_0.index t (0 : Fin 2) * 512 + 1 * p.val = r.val; omega
  | ⟨1, _⟩ => show win0_0.index t (1 : Fin 2) * 512 + 1 * k.val = k.val; omega

/-- Row p of the state block at point t is row 512·t + p of the previous state. -/
theorem stateBlock_apply (c : Dev nD) (t : Fin cfg0.N) (p : Fin 512) (k : Fin 1024) (r : Fin 16384) (hr : r.val = t.val * 512 + p.val) :
    (iblk m c 1 t : FVec Ideal S512x1024 .f32) (ix2 p k) = argH m c (ix2 r k) := by
  obtain ⟨-, -, e0, e1, -⟩ := blockIndex t
  unfold iblk
  rw [View.read_apply]
  show V m c main_arg1 (((cfg0.win 1).blk t).view.emb (ix2 p k)) = _
  rw [V_main_arg1]
  refine congrArg (argH m c) (funext fun a => Fin.ext ?_)
  match a with
  | ⟨0, _⟩ => show win0_1.index t (0 : Fin 2) * 512 + 1 * p.val = r.val; omega
  | ⟨1, _⟩ => show win0_1.index t (1 : Fin 2) * 1024 + 1 * k.val = k.val; omega

/-- The gates' matrices are read whole at every point. -/
theorem gateWeightsBlock_apply (c : Dev nD) (t : Fin cfg0.N) (k : Fin 1024) (q : Fin 2048) :
    (iblk m c 2 t : FVec Ideal S1024x2048 .bf16) (ix2 k q) = (V m c main_v3 : S1024x2048.Idx → EReal) (ix2 k q) := by
  obtain ⟨-, -, -, -, e0, e1, -⟩ := blockIndex t
  unfold iblk
  rw [View.read_apply]
  show (V m c main_v3 : S1024x2048.Idx → EReal) (((cfg0.win 2).blk t).view.emb (ix2 k q)) = _
  refine congrArg (V m c main_v3 : S1024x2048.Idx → EReal) (funext fun a => Fin.ext ?_)
  match a with
  | ⟨0, _⟩ => show win0_2.index t (0 : Fin 2) * 1024 + 1 * k.val = k.val; omega
  | ⟨1, _⟩ => show win0_2.index t (1 : Fin 2) * 2048 + 1 * q.val = q.val; omega

/-- So are their biases, -/
theorem gateBiasBlock_apply (c : Dev nD) (t : Fin cfg0.N) (q : Fin 2048) :
    (iblk m c 3 t : FVec Ideal S1x2048 .f32) (ix2 (0 : Fin 1) q) = (V m c main_v5 : S1x2048.Idx → EReal) (ix2 (0 : Fin 1) q) := by
  obtain ⟨-, -, -, -, -, -, e0, e1, -⟩ := blockIndex t
  unfold iblk
  rw [View.read_apply]
  show (V m c main_v5 : S1x2048.Idx → EReal) (((cfg0.win 3).blk t).view.emb (ix2 (0 : Fin 1) q)) = _
  refine congrArg (V m c main_v5 : S1x2048.Idx → EReal) (funext fun a => Fin.ext ?_)
  match a with
  | ⟨0, _⟩ => show win0_3.index t (0 : Fin 2) * 1 + 1 * 0 = 0; omega
  | ⟨1, _⟩ => show win0_3.index t (1 : Fin 2) * 2048 + 1 * q.val = q.val; omega

/-- the candidate's first matrix, -/
theorem candInputWeightsBlock_apply (c : Dev nD) (t : Fin cfg0.N) (k : Fin 512) (e : Fin 1024) :
    (iblk m c 4 t : FVec Ideal S512x1024 .bf16) (ix2 k e) = (V m c main_v7 : S512x1024.Idx → EReal) (ix2 k e) := by
  obtain ⟨-, -, -, -, -, -, -, -, e0, e1, -⟩ := blockIndex t
  unfold iblk
  rw [View.read_apply]
  show (V m c main_v7 : S512x1024.Idx → EReal) (((cfg0.win 4).blk t).view.emb (ix2 k e)) = _
  refine congrArg (V m c main_v7 : S512x1024.Idx → EReal) (funext fun a => Fin.ext ?_)
  match a with
  | ⟨0, _⟩ => show win0_4.index t (0 : Fin 2) * 512 + 1 * k.val = k.val; omega
  | ⟨1, _⟩ => show win0_4.index t (1 : Fin 2) * 1024 + 1 * e.val = e.val; omega

/-- its second matrix, -/
theorem candStateWeightsBlock_apply (c : Dev nD) (t : Fin cfg0.N) (k e : Fin 1024) :
    (iblk m c 5 t : FVec Ideal S1024x1024 .bf16) (ix2 k e) = (V m c main_v9 : S1024x1024.Idx → EReal) (ix2 k e) := by
  obtain ⟨-, -, -, -, -, -, -, -, -, -, e0, e1, -⟩ := blockIndex t
  unfold iblk
  rw [View.read_apply]
  show (V m c main_v9 : S1024x1024.Idx → EReal) (((cfg0.win 5).blk t).view.emb (ix2 k e)) = _
  refine congrArg (V m c main_v9 : S1024x1024.Idx → EReal) (funext fun a => Fin.ext ?_)
  match a with
  | ⟨0, _⟩ => show win0_5.index t (0 : Fin 2) * 1024 + 1 * k.val = k.val; omega
  | ⟨1, _⟩ => show win0_5.index t (1 : Fin 2) * 1024 + 1 * e.val = e.val; omega

/-- and its bias. -/
theorem candBiasBlock_apply (c : Dev nD) (t : Fin cfg0.N) (e : Fin 1024) :
    (iblk m c 6 t : FVec Ideal S1x1024 .f32) (ix2 (0 : Fin 1) e) = (V m c main_v10 : S1x1024.Idx → EReal) (ix2 (0 : Fin 1) e) := by
  obtain ⟨-, -, -, -, -, -, -, -, -, -, -, -, e0, e1, -⟩ := blockIndex t
  unfold iblk
  rw [View.read_apply]
  show (V m c main_v10 : S1x1024.Idx → EReal) (((cfg0.win 6).blk t).view.emb (ix2 (0 : Fin 1) e)) = _
  refine congrArg (V m c main_v10 : S1x1024.Idx → EReal) (funext fun a => Fin.ext ?_)
  match a with
  | ⟨0, _⟩ => show win0_6.index t (0 : Fin 2) * 1 + 1 * 0 = 0; omega
  | ⟨1, _⟩ => show win0_6.index t (1 : Fin 2) * 1024 + 1 * e.val = e.val; omega

/-- Entry (p, e) of the result's block at point t is entry (512·t + p, e) of the result array. -/
theorem resultBlock_emb (t : Fin cfg0.N) (p : Fin 512) (e : Fin 1024) (r : Fin 16384) (hr : r.val = t.val * 512 + p.val) :
    ((cfg0.win 7).blk t).view.emb (ix2 p e) = (ix2 r e : S16384x1024.Idx) := by
  obtain ⟨-, -, -, -, -, -, -, -, -, -, -, -, -, -, e0, e1⟩ := blockIndex t
  funext a
  apply Fin.ext
  match a with
  | ⟨0, _⟩ => show win0_7.index t (0 : Fin 2) * 512 + 1 * p.val = r.val; omega
  | ⟨1, _⟩ => show win0_7.index t (1 : Fin 2) * 1024 + 1 * e.val = e.val; omega

/-! ## What a point stores is the cell's next state on its rows -/

/-- The body's stored value at point t, entry (p, e), is the cell's next state at (512·t + p, e). -/
theorem point_entry (c : Dev nD) (t : Fin cfg0.N) (p : Fin 512) (e : Fin 1024) (r : Fin 16384) (hr : r.val = t.val * 512 + p.val) :
    k0_pay1 (F := Ideal) (iblk m c 0 t) (iblk m c 1 t) (iblk m c 2 t) (iblk m c 3 t) (iblk m c 4 t) (iblk m c 5 t) (iblk m c 6 t) (ix2 p e)
      = Gru.next (argX m c) (argH m c) (argWu m c) (argBu m c) (argWr m c) (argBr m c) (argWhx m c) (argWhh m c) (argBh m c) r e :=
  Body.payload_eq_next (iblk m c 0 t) (iblk m c 1 t) (iblk m c 2 t) (iblk m c 3 t) (iblk m c 4 t) (iblk m c 5 t) (iblk m c 6 t)
    (argX m c) (argH m c) (argWu m c) (argBu m c) (argWr m c) (argBr m c) (argWhx m c) (argWhh m c) (argBh m c) r p e
    (fun k => inputBlock_apply m c t p k r hr)
    (fun k => stateBlock_apply m c t p k r hr)
    (fun k e' => (gateWeightsBlock_apply m c t k (lo e')).trans (gateWeights_lo m c k e'))
    (fun k e' => (gateWeightsBlock_apply m c t k (hi e')).trans (gateWeights_hi m c k e'))
    (fun e' => (gateBiasBlock_apply m c t (lo e')).trans (gateBias_lo m c e'))
    (fun e' => (gateBiasBlock_apply m c t (hi e')).trans (gateBias_hi m c e'))
    (fun k e' => (candInputWeightsBlock_apply m c t k e').trans (candInputWeights_apply m c k e'))
    (fun k e' => (candStateWeightsBlock_apply m c t k e').trans (candStateWeights_apply m c k e'))
    (fun e' => (candBiasBlock_apply m c t e').trans (candBias_apply m c e'))

/-- The same at any entry of the block, read through the block's place in the result array. -/
theorem point_block (c : Dev nD) (t : Fin cfg0.N) (y : S512x1024.Idx) :
    k0_pay1 (F := Ideal) (iblk m c 0 t) (iblk m c 1 t) (iblk m c 2 t) (iblk m c 3 t) (iblk m c 4 t) (iblk m c 5 t) (iblk m c 6 t) y
      = nextArr m c (((cfg0.win 7).blk t).view.emb y) := by
  obtain ⟨p, e, rfl⟩ : ∃ (p : Fin 512) (e : Fin 1024), y = ix2 p e := ⟨y 0, y 1, eq_ix2 y⟩
  have hN : cfg0.N = 32 := N_0
  have hr : t.val * 512 + p.val < 16384 := by have := t.isLt; have := p.isLt; omega
  rw [resultBlock_emb t p e ⟨t.val * 512 + p.val, hr⟩ rfl]
  exact point_entry m c t p e ⟨t.val * 512 + p.val, hr⟩ rfl

/-- What point t writes back is block t of the cell's next state. -/
theorem flushed_eq (c : Dev nD) (t : Fin cfg0.N) :
    (dats m 0 c).flushed 7 t = ((cfg0.win 7).blk t).view.read (Elt Ideal) (nextArr m c) := by
  rw [Cert.KernelIdeal.Value.flushed7]
  unfold out0_7
  rw [View.canon_unit_zero zeroOffsets]
  simp only [View.ld_unit_zero (S := S512x512) zeroOffsets, View.ld_unit_zero (S := S512x1024) zeroOffsets,
    View.ld_unit_zero (S := S1024x2048) zeroOffsets, View.ld_unit_zero (S := S1x2048) zeroOffsets,
    View.ld_unit_zero (S := S1024x1024) zeroOffsets, View.ld_unit_zero (S := S1x1024) zeroOffsets]
  funext j
  show k0_pay1 (F := Ideal) (iblk m c 0 t) (iblk m c 1 t) (iblk m c 2 t) (iblk m c 3 t) (iblk m c 4 t) (iblk m c 5 t) (iblk m c 6 t) j
    = nextArr m c (((cfg0.win 7).blk t).view.emb j)
  exact point_block m c t j

/-! ## The 32 blocks cover the result -/

/-- An entry of the result is in point t's block iff each coordinate is in the block's range on its axis. -/
theorem mem_block (t : Fin cfg0.N) (i : S16384x1024.Idx) :
    i ∈ ((cfg0.win 7).blk t).view.set ↔ ∀ a : Fin 2, win0_7.index t a * S512x1024.size a ≤ (i a).val
      ∧ (i a).val < win0_7.index t a * S512x1024.size a + S512x1024.size a := by
  show i ∈ ((View.whole main_v11).slice (win0_7.rect t)).set ↔ _
  rw [View.set_slice_whole, Rect.mem_set_unit]
  exact Iff.rfl

/-- Row r of the result lies in the block of point r / 512. -/
theorem covered (i : S16384x1024.Idx) :
    ∃ t : Fin cfg0.N, (cfg0.win 7).flush t = true ∧ i ∈ ((cfg0.win 7).blk t).view.set := by
  have hN : cfg0.N = 32 := N_0
  have h0 : (i 0).val < 16384 := (i 0).isLt
  have h1 : (i 1).val < 1024 := (i 1).isLt
  obtain ⟨t, ht⟩ : ∃ t : Fin cfg0.N, t.val = (i 0).val / 512 := ⟨⟨(i 0).val / 512, by omega⟩, rfl⟩
  obtain ⟨-, -, -, -, -, -, -, -, -, -, -, -, -, -, e0, e1⟩ := blockIndex t
  refine ⟨t, flush0_7 t, ?_⟩
  rw [mem_block]
  intro a
  match a with
  | ⟨0, _⟩ =>
    show win0_7.index t (0 : Fin 2) * 512 ≤ (i 0).val ∧ (i 0).val < win0_7.index t (0 : Fin 2) * 512 + 512
    omega
  | ⟨1, _⟩ =>
    show win0_7.index t (1 : Fin 2) * 1024 ≤ (i 1).val ∧ (i 1).val < win0_7.index t (1 : Fin 2) * 1024 + 1024
    omega

/-! ## The result array, and the run -/

/-- After the run the result array holds the cell's next state. -/
theorem final (c : Dev nD) : (dats m 0 c).arrAt 7 cfg0.N = nextArr m c :=
  (dats m 0 c).arrAt_eq_of_cover 7 (nextArr m c) (fun t _ => flushed_eq m c t) (fun i => covered i)

/-- The kernel's run, read: every weakly fair execution ends with the result array at the cell's next state of the
    arguments as launched, and the arguments unchanged. -/
theorem run : θ_run defs (onTc (τ := τ) (main (F := Ideal))) ⟨m, fun _ => 0, ρ⟩ fun r => ∀ c : Dev nD,
      r.2.mem ((c : Thread nD τ).loc main_v11) = nextArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩)
    (Cert.KernelIdeal.Value.run_blocks m ρ)

end Cert.KernelIdeal.Whole

end
-- ==== Proof.RefIsGru.lean ====
/-
  The reference computes the cell.

  The reference program is the cell written in array operations: each gate is a product of the state with a transposed
  weight matrix plus a bias laid along the rows, under the logistic function spelt as one over one plus the exponential
  of the negated argument; the candidate is the input's product plus the reset-gated state's product plus a bias, under
  the hyperbolic tangent; the result mixes the state and the candidate by the update gate. Read one operation at a
  time at an entry (p, e), every product is a sum over the contracted coordinate k of a row-p entry times a row-e
  entry of the (untransposed) matrix, every bias is read at e, and the spelt-out logistic function is the logistic
  function: the reference's last stage is the cell's next state, entry by entry.
-/
import proofs.«178698_j9320079033021_2_alg».proof.Proof.Gen.ReferenceIdeal.Read
import proofs.«178698_j9320079033021_2_alg».proof.Proof.GruCell

noncomputable section

namespace Cert.ReferenceIdeal.IsGru

open Cert.ReferenceIdeal Cert.ReferenceIdeal.Read Idealize.ShloMosaic Idealize.ShloMosaic.ValueIdx

/-! ## Where each operation reads its operands, at entry (p, e)

Each product against a transposed matrix reads the left operand at (p, k) and the matrix itself at (e, k); each bias,
laid along the rows in two steps, is read at e. -/

section Indices
variable (p : Fin 16384) (e k : Fin 1024) (k' : Fin 512)

theorem updState : lidx_main_v1 (ix2 p e) k = ix2 p k :=
  funext fun a => Fin.ext (by match a with | ⟨0, _⟩ => rfl | ⟨1, _⟩ => rfl)
theorem updWeight : idx_main_v0 (ridx_main_v1 (ix2 p e) k) = ix2 e k :=
  funext fun a => Fin.ext (by match a with | ⟨0, _⟩ => rfl | ⟨1, _⟩ => rfl)
theorem updBias : idx_main_v2 (idx_main_v3 (ix2 p e)) = ix1 e :=
  funext fun a => Fin.ext (by match a with | ⟨0, _⟩ => rfl)

theorem rstState : lidx_main_v12 (ix2 p e) k = ix2 p k :=
  funext fun a => Fin.ext (by match a with | ⟨0, _⟩ => rfl | ⟨1, _⟩ => rfl)
theorem rstWeight : idx_main_v11 (ridx_main_v12 (ix2 p e) k) = ix2 e k :=
  funext fun a => Fin.ext (by match a with | ⟨0, _⟩ => rfl | ⟨1, _⟩ => rfl)
theorem rstBias : idx_main_v13 (idx_main_v14 (ix2 p e)) = ix1 e :=
  funext fun a => Fin.ext (by match a with | ⟨0, _⟩ => rfl)

theorem candInput : lidx_main_v23 (ix2 p e) k' = ix2 p k' :=
  funext fun a => Fin.ext (by match a with | ⟨0, _⟩ => rfl | ⟨1, _⟩ => rfl)
theorem candInputWeight : idx_main_v22 (ridx_main_v23 (ix2 p e) k') = ix2 e k' :=
  funext fun a => Fin.ext (by match a with | ⟨0, _⟩ => rfl | ⟨1, _⟩ => rfl)
theorem candState : lidx_main_v26 (ix2 p e) k = ix2 p k :=
  funext fun a => Fin.ext (by match a with | ⟨0, _⟩ => rfl | ⟨1, _⟩ => rfl)
theorem candStateWeight : idx_main_v25 (ridx_main_v26 (ix2 p e) k) = ix2 e k :=
  funext fun a => Fin.ext (by match a with | ⟨0, _⟩ => rfl | ⟨1, _⟩ => rfl)
theorem candBias : idx_main_v28 (idx_main_v29 (ix2 p e)) = ix1 e :=
  funext fun a => Fin.ext (by match a with | ⟨0, _⟩ => rfl)

end Indices

/-! ## The last stage is the cell -/

/-- The reference's result, as a function of its nine arguments, is the cell's next state. -/
theorem result_eq_nextState (x0 : (⟨S16384x512, .f32⟩ : BufTy).Contents (Elt Ideal)) (x1 : (⟨S16384x1024, .f32⟩ : BufTy).Contents (Elt Ideal))
    (x2 : (⟨S1024x1024, .f32⟩ : BufTy).Contents (Elt Ideal)) (x3 : (⟨S1024, .f32⟩ : BufTy).Contents (Elt Ideal))
    (x4 : (⟨S1024x1024, .f32⟩ : BufTy).Contents (Elt Ideal)) (x5 : (⟨S1024, .f32⟩ : BufTy).Contents (Elt Ideal))
    (x6 : (⟨S1024x512, .f32⟩ : BufTy).Contents (Elt Ideal)) (x7 : (⟨S1024x1024, .f32⟩ : BufTy).Contents (Elt Ideal))
    (x8 : (⟨S1024, .f32⟩ : BufTy).Contents (Elt Ideal)) :
    val_main_v36 (F := Ideal) x0 x1 x2 x3 x4 x5 x6 x7 x8 = Gru.nextState x0 x1 x2 x3 x4 x5 x6 x7 x8 := by
  funext i
  obtain ⟨p, e, rfl⟩ : ∃ (p : Fin 16384) (e : Fin 1024), i = ix2 p e := ⟨i 0, i 1, eq_ix2 i⟩
  show _ = Gru.next x0 x1 x2 x3 x4 x5 x6 x7 x8 p e
  simp only [val_main_v36_apply, val_main_v35_apply, val_main_v34_apply, val_main_v33_apply, val_main_v32_apply,
    val_main_cst_3_apply, val_main_v31_apply, val_main_v30_apply, val_main_v29_apply, val_main_v28_apply,
    val_main_v27_apply, val_main_v26_apply, val_main_v25_apply, val_main_v24_apply, val_main_v23_apply,
    val_main_v22_apply, val_main_v21_apply, val_main_v20_apply, val_main_cst_2_apply, val_main_v19_apply,
    val_main_v18_apply, val_main_cst_1_apply, val_main_v17_apply, val_main_v16_apply, val_main_v15_apply,
    val_main_v14_apply, val_main_v13_apply, val_main_v12_apply, val_main_v11_apply, val_main_v10_apply,
    val_main_v9_apply, val_main_cst_0_apply, val_main_v8_apply, val_main_v7_apply, val_main_cst_apply,
    val_main_v6_apply, val_main_v5_apply, val_main_v4_apply, val_main_v3_apply, val_main_v2_apply,
    val_main_v1_apply, val_main_v0_apply,
    updState, updWeight, updBias, rstState, rstWeight, rstBias, candInput, candInputWeight, candState,
    candStateWeight, candBias,
    Ideal.addf_def, Ideal.mulf_def, Ideal.subf_def, Ideal.hostDivf_def, Ideal.hostUnary_exp_def, Ideal.hostNegf_def,
    Ideal.negf_def, Ideal.hostUnary_tanh_def, Ideal.ofBits_def, Gru.logistic_expanded]
  rw [Ideal.ofBits_one_f32]
  rfl

end Cert.ReferenceIdeal.IsGru

end
-- ==== Proof.lean ====
/-
  The kernel and its reference compute one function: a gated recurrent cell.

  From a batch of 16384 input rows x (512 wide) and previous states h (1024 wide), three weight matrices on the state
  (W_u, W_r, W_hh), one on the input (W_hx) and three biases, both programs produce, at batch row p and hidden unit e,

      h'(p,e) = (1 − u(p,e)) · h(p,e) + u(p,e) · tanh( Σ_k x(p,k)·W_hx(e,k) + Σ_k (r(p,k)·h(p,k))·W_hh(e,k) + b_h(e) ),
      u(p,e)  = σ( Σ_k h(p,k)·W_u(e,k) + b_u(e) ),    r(p,e) = σ( Σ_k h(p,k)·W_r(e,k) + b_r(e) ),

  returned twice. The reference writes this in whole-array operations, with σ spelt as one over one plus the exponential
  of the negated argument. The kernel walks the batch in 32 blocks of 512 rows; it forms both gates with ONE product
  against the two gate matrices laid side by side (and their biases end to end), cuts the product in two halves, applies
  the logistic function as one operation, and feeds its matrix unit with operands narrowed to a shorter float format.
  On the extended reals the narrowing is the identity, a matrix-unit product into a zero accumulator is the plain sum,
  column e of the left half of the side-by-side matrix is row e of W_u and column 1024 + e of the right half is row e
  of W_r, and the spelt-out logistic function is the logistic function; so the two programs build the SAME expression
  at every entry. No law of arithmetic that fails at an infinity is needed, and the precondition (every input finite)
  is never opened.

  The modules: the cell as one function of its nine argument arrays (GruCell); the reference's last stage is that
  function (RefIsGru); what the kernel body stores, entry by entry, from the blocks it loads (BlockBody, over a general
  lemma reading a matrix product at an entry, LibColsMatmul); what the host-prepared operand arrays hold (HostOperands);
  every block of the result is the cell's next state on its rows and the blocks cover the result (BlocksToArray). Each
  program runs to completion with its arguments unchanged by its generated frame run; the idealized kernel is the
  kernel's own text read on the extended reals, so nothing is to be shown of that step.
-/
import proofs.«178698_j9320079033021_2_alg».proof.Defs
import proofs.«178698_j9320079033021_2_alg».proof.Proof.Gen.Kernel
import proofs.«178698_j9320079033021_2_alg».proof.Proof.Gen.Kernel.Skeleton
import proofs.«178698_j9320079033021_2_alg».proof.Proof.Gen.Kernel.Launch
import proofs.«178698_j9320079033021_2_alg».proof.Proof.Gen.Kernel.Points
import proofs.«178698_j9320079033021_2_alg».proof.Proof.Gen.Kernel.Frame
import proofs.«178698_j9320079033021_2_alg».proof.Proof.Gen.KernelIdeal
import proofs.«178698_j9320079033021_2_alg».proof.Proof.Gen.KernelIdeal.Skeleton
import proofs.«178698_j9320079033021_2_alg».proof.Proof.Gen.KernelIdeal.Launch
import proofs.«178698_j9320079033021_2_alg».proof.Proof.Gen.KernelIdeal.Points
import proofs.«178698_j9320079033021_2_alg».proof.Proof.Gen.KernelIdeal.Frame
import proofs.«178698_j9320079033021_2_alg».proof.Proof.Gen.ReferenceIdeal
import proofs.«178698_j9320079033021_2_alg».proof.Proof.Gen.KernelIdeal.Value
import proofs.«178698_j9320079033021_2_alg».proof.Proof.Gen.ReferenceIdeal.Run
import proofs.«178698_j9320079033021_2_alg».proof.Proof.Gen.ReferenceIdeal.Read
import proofs.«178698_j9320079033021_2_alg».proof.Proof.Gen.Pre_finite_inputs
import proofs.«178698_j9320079033021_2_alg».proof.Proof.BlocksToArray
import proofs.«178698_j9320079033021_2_alg».proof.Proof.RefIsGru
import Idealize.ShloMosaic.Adequacy
import Idealize.ShloMosaic.Init

noncomputable section

namespace Cert.Proof

open Idealize.ShloMosaic Idealize.ShloMosaic.TcCoe Idealize.SL.Sem

/-- The kernel as printed runs to completion and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Reading the kernel on the extended reals rewrote none of its operations. -/
theorem preserves : Cert.preserves_Kernel_KernelIdeal := trivial

/-- From memories that agree on the nine arguments, the kernel's result array and the reference's both end at the
    cell's next state of those arguments — the kernel's by its blocks, the reference's by its last stage — and both
    programs return that array twice. -/
theorem algebraic : Cert.algebraic_KernelIdeal_ReferenceIdeal := by
  intro m ρ m' ρ' _ hagree
  refine ⟨fun c => Cert.KernelIdeal.Whole.nextArr m c, fun c => Cert.KernelIdeal.Whole.nextArr m c, ?_, ?_⟩
  · exact (θ_run Cert.KernelIdeal.defs _ _).mono (fun _ h c => ⟨(h c).1, (h c).1, (h c).2⟩)
      (Cert.KernelIdeal.Whole.run m ρ)
  · refine (θ_run Cert.ReferenceIdeal.defs _ _).mono (fun r h c => ?_)
      (Cert.ReferenceIdeal.Value.run (F := Ideal) m' ρ')
    obtain ⟨a0, a1, a2, a3, a4, a5, a6, a7, a8⟩ := hagree c
    have e : r.2.mem ((c.tc : Thread Cert.ReferenceIdeal.nD Cert.ReferenceIdeal.τ).loc Cert.ReferenceIdeal.main_v36)
        = Cert.KernelIdeal.Whole.nextArr m c := by
      rw [(h c).1, Cert.ReferenceIdeal.Read.val_main_v36_eq, Cert.ReferenceIdeal.IsGru.result_eq_nextState,
        a0, a1, a2, a3, a4, a5, a6, a7, a8]
    exact ⟨e, e, (h c).2.2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
